-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel

variable [Facts]

def fn {F : FTy → Type} [FloatOps F] (main_arg0 : FVec F S100000x16 .f32) (main_arg1 : FVec F S100000x16 .f32) (main_arg2 : IVec S2x3200000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S100000x16 : Shape := ⟨2, ![100000, 16]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S12500x128 : Shape := ⟨2, ![12500, 128]⟩
abbrev S2560x128 : Shape := ⟨2, ![2560, 128]⟩
abbrev S3200000x16 : Shape := ⟨2, ![3200000, 16]⟩

abbrev nBuf : Space → Nat
  | .hbm => 31
  | .vmem => 8
  | .smem => 0
  | _ => 0

abbrev bufTy : (tb : Table) → Fin (tcTables nBuf tb) → BufTy
  | .hbm, ⟨0, _⟩ => ⟨S100000x16, .f32⟩
  | .hbm, ⟨1, _⟩ => ⟨S100000x16, .f32⟩
  | .hbm, ⟨2, _⟩ => ⟨S2x3200000, .i32⟩
  | .hbm, ⟨3, _⟩ => ⟨S1x3200000, .i32⟩
  | .hbm, ⟨4, _⟩ => ⟨S3200000, .i32⟩
  | .hbm, ⟨5, _⟩ => ⟨S_, .i32⟩
  | .hbm, ⟨6, _⟩ => ⟨S3200000, .i32⟩
  | .hbm, ⟨7, _⟩ => ⟨S_, .i32⟩
  | .hbm, ⟨8, _⟩ => ⟨S100000, .i32⟩
  | .hbm, ⟨9, _⟩ => ⟨S3200000x1, .i32⟩
  | .hbm, ⟨10, _⟩ => ⟨S100000, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S100000x16, .f32⟩
  | .hbm, ⟨17, _⟩ => ⟨S12500x128, .f32⟩
  | .hbm, ⟨18, _⟩ => ⟨S12500x128, .f32⟩
  | .hbm, ⟨19, _⟩ => ⟨S12500x128, .f32⟩
  | .hbm, ⟨20, _⟩ => ⟨S12500x128, .f32⟩
  | .hbm, ⟨21, _⟩ => ⟨S100000x16, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x16, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S2560x128, .f32⟩
  | .local _ .vmem, ⟨7, _⟩ => ⟨S2560x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S100000x16_S12500x128 : S100000x16.ShapeCasts S12500x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  shapeCasts_S12500x128_S100000x16 : S12500x128.ShapeCasts S100000x16
  scatter_S100000_S3200000x1_S3200000_n_0_0_1_wf : ScatterDims.WF S100000 S3200000x1 S3200000 [] [0] [0] 1
  gather_S100000x16_S3200000x1_S3200000x16_1_0_n_n_0_1_116_wf : GatherDims.WF S100000x16 S3200000x1 S3200000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2560x128.size a < S12500x128.size a
  hwx0_0 : ∀ i : grid0.Coords, EltTy.bits .f32 = 32 ∨ (Rect.unit (s := S12500x128) (fun a => cc0_transform_0 i a * S2560x128.size a) (fun a => (Pipeline.Clip.of (cc0_transform_0 i a) (S2560x128.size a) (S12500x128.size a)).extent (S2560x128.size a)) fun a => Pipeline.Clip.inb (Pipeline.Clip.ok_of (hstart0_0 i a))).WholeWords (EltTy.packing .f32)
  hwxs0_0 : ∀ i : grid0.Coords, EltTy.bits .f32 = 32 ∨ (Rect.unit (s := S2560x128) (fun _ => 0) (fun a => (Pipeline.Clip.of (cc0_transform_0 i a) (S2560x128.size a) (S12500x128.size a)).extent (S2560x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2560x128.size a < S12500x128.size a
  hwx0_1 : ∀ i : grid0.Coords, EltTy.bits .f32 = 32 ∨ (Rect.unit (s := S12500x128) (fun a => cc0_transform_1 i a * S2560x128.size a) (fun a => (Pipeline.Clip.of (cc0_transform_1 i a) (S2560x128.size a) (S12500x128.size a)).extent (S2560x128.size a)) fun a => Pipeline.Clip.inb (Pipeline.Clip.ok_of (hstart0_1 i a))).WholeWords (EltTy.packing .f32)
  hwxs0_1 : ∀ i : grid0.Coords, EltTy.bits .f32 = 32 ∨ (Rect.unit (s := S2560x128) (fun _ => 0) (fun a => (Pipeline.Clip.of (cc0_transform_1 i a) (S2560x128.size a) (S12500x128.size a)).extent (S2560x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2560x128.size a < S12500x128.size a
  hwx0_2 : ∀ i : grid0.Coords, EltTy.bits .f32 = 32 ∨ (Rect.unit (s := S12500x128) (fun a => cc0_transform_2 i a * S2560x128.size a) (fun a => (Pipeline.Clip.of (cc0_transform_2 i a) (S2560x128.size a) (S12500x128.size a)).extent (S2560x128.size a)) fun a => Pipeline.Clip.inb (Pipeline.Clip.ok_of (hstart0_2 i a))).WholeWords (EltTy.packing .f32)
  hwxs0_2 : ∀ i : grid0.Coords, EltTy.bits .f32 = 32 ∨ (Rect.unit (s := S2560x128) (fun _ => 0) (fun a => (Pipeline.Clip.of (cc0_transform_2 i a) (S2560x128.size a) (S12500x128.size a)).extent (S2560x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2560x128.size a < S12500x128.size a
  hwx0_3 : ∀ i : grid0.Coords, EltTy.bits .f32 = 32 ∨ (Rect.unit (s := S12500x128) (fun a => cc0_transform_3 i a * S2560x128.size a) (fun a => (Pipeline.Clip.of (cc0_transform_3 i a) (S2560x128.size a) (S12500x128.size a)).extent (S2560x128.size a)) fun a => Pipeline.Clip.inb (Pipeline.Clip.ok_of (hstart0_3 i a))).WholeWords (EltTy.packing .f32)
  hwxs0_3 : ∀ i : grid0.Coords, EltTy.bits .f32 = 32 ∨ (Rect.unit (s := S2560x128) (fun _ => 0) (fun a => (Pipeline.Clip.of (cc0_transform_3 i a) (S2560x128.size a) (S12500x128.size a)).extent (S2560x128.size a)) fun a => (Nat.zero_add _).trans_le (Pipeline.Clip.extent_le (Pipeline.Clip.ok_of (hstart0_3 i a)))).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf

abbrev win0_0 : Pipeline.Window sig grid0 :=
  Pipeline.Window.ofSpecClip (Memref.whole main_v11) S2560x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v12) S2560x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v13) S2560x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v14) S2560x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩

abbrev nBuf : Space → Nat
  | .hbm => 38
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S100000x16, .f32⟩
  | .hbm, ⟨2, _⟩ => ⟨S2x3200000, .i32⟩
  | .hbm, ⟨3, _⟩ => ⟨S1x3200000, .i32⟩
  | .hbm, ⟨4, _⟩ => ⟨S3200000, .i32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x16, .f32⟩
  | .hbm, ⟨14, _⟩ => ⟨S_, .f32⟩
  | .hbm, ⟨15, _⟩ => ⟨S100000x16, .f32⟩
  | .hbm, ⟨16, _⟩ => ⟨S3200000x1, .i32⟩
  | .hbm, ⟨17, _⟩ => ⟨S100000x16, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x16, .f32⟩
  | .hbm, ⟨27, _⟩ => ⟨S3200000x16, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x16, .f32⟩
  | .hbm, ⟨37, _⟩ => ⟨S3200000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.TableBodyBits.lean ====
/-
  The node table's elementwise pass, as the pipeline runs it.

  The kernel walks three [12500, 128] arrays (the node features, the additive term and the per-node coefficient, each
  the row-major re-reading of a [100000, 16] array) in five blocks of 2560 rows and writes, entry by entry,
  coefficient * feature + additive term. 5 * 2560 = 12800 > 12500: the last block overhangs the arrays by 300
  rows. On those rows a staging buffer holds words nothing names, the body computes from them words nothing reads, and
  the write-back moves only the rows inside the array. So the proof data describe each staging buffer on the rows
  inside the array only: an input buffer holds its block there, and the result's buffer holds the combination of the three
  input blocks there.

  This module gives: the body's triple on whole staging buffers at any contents (the result's buffer ends at the
  entrywise combination of the other three), the proof data, the body obligation in the loose form that speaks of the rows inside
  the array only, the run of @main around the region, and the frame read off that run.
-/
import proofs.«173388_j2585570312451_2_alg».proof.Proof.Gen.Kernel.Frame
import proofs.«173388_j2585570312451_2_alg».proof.Proof.Gen.Kernel.Skeleton
import Idealize.ShloMosaic.Lib.Pipeline.Kit
import Idealize.ShloMosaic.Lib.Pipeline.Frame
import Idealize.ShloMosaic.Lib.Pipeline.FrameSuffix
import Idealize.ShloMosaic.Lib.Pipeline.Value
import Idealize.ShloMosaic.Lib.Tactic

set_option maxRecDepth 16384

noncomputable section

namespace Cert.Kernel.Table

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers -/

/-- The whole 2560 x 128 rectangle every access of the body goes through. -/
abbrev whole : Rect S2560x128 := Rect.unit (s := S2560x128) ![0, 0] S2560x128.size inb_S2560x128_S2560x128_0_0

theorem zeros : (![0, 0] : Fin 2 → Nat) = fun _ => 0 := funext fun a => by fin_cases a <;> rfl

/-- What the body leaves in the result's buffer when the feature, additive and coefficient buffers hold `x`, `e`, `k`:
    its one store, of `k * x + e` entry by entry, through the whole rectangle. -/
def stored (x e k : Vec F S2560x128 .f32) : Vec F S2560x128 .f32 :=
  View.canon [⟨whole, k0_pay1 (View.ld k whole) (View.ld x whole) (View.ld e whole)⟩]

/-- The same, entry by entry. -/
def comb (x e k : S2560x128.Idx → Elt F .f32) : S2560x128.Idx → Elt F .f32 :=
  fun j => FloatOps.addf (FloatOps.mulf (k j) (x j)) (e j)

theorem stored_eq (x e k : Vec F S2560x128 .f32) : stored x e k = comb x e k := by
  unfold stored
  rw [View.canon_unit_zero zeros]
  simp only [View.ld_unit_zero (S := S2560x128) zeros]
  unfold k0_pay1
  simp only [shapeCast_self]
  rfl

theorem cover (p0 : Vec F S2560x128 .f32) (y : S2560x128.Idx) :
    ∃ pc ∈ ([⟨whole, p0⟩] : List (View.Piece (Elt F) S2560x128 .f32)), y ∈ pc.1.set :=
  View.cover_of_tiled [⟨whole, p0⟩] S2560x128.size (by rfl) y

set_option maxHeartbeats 1000000 in
/-- The body on four whole staging buffers, the inputs' at any contents and the result's at anything: it loads the three
    inputs (and, unused, the result's buffer), and stores the combination; the inputs' buffers are left as they were. -/
theorem sound_kernel (c : Dev nD) (E : Set ℕ) (i : grid0.Coords)
    (arg1 : Memref sig .tc .vmem S2560x128 .f32) (harg1 : arg1.IsWhole) (arg2 : Memref sig .tc .vmem S2560x128 .f32) (harg2 : arg2.IsWhole)
    (arg3 : Memref sig .tc .vmem S2560x128 .f32) (harg3 : arg3.IsWhole) (arg4 : Memref sig .tc .vmem S2560x128 .f32) (harg4 : arg4.IsWhole)
    (x0 x1 x2 : Vec F S2560x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (stored x0 x1 x2)) -∗ K ⟨⟩))
      ⊢ wp frame (wpE (defs₀ (F := F)) Variants.none c none) E (cc0__combine_table_kernel i arg1 harg1 arg2 harg2 arg3 harg3 arg4 harg4) K := by
  simp only [cc0__combine_table_kernel_eq_skeleton]; unfold cc0__combine_table_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data -/

/-- A filler for the rows of a staging buffer past the array's end: nothing reads it. -/
def filler : S2560x128.Idx → Elt F .f32 := fun _ => Scalar.ofBits .f32 0#32

/-- The rows inside the array of the result's block at point `t`: the combination of the three input blocks there. -/
def outblk (c : Dev nD) (t : Fin cfg0.N) : (win0_3.xblock (grid0.coords t)).Idx → Elt F .f32 :=
  fun j => FloatOps.addf (FloatOps.mulf (iblk m c 2 t j) (iblk m c 0 t j)) (iblk m c 1 t j)

/-- The proof data: the arrays as the region finds them; after the body at point `t` each input's buffer holds its
    block and the result's buffer the combination, on the rows inside the array (the filler elsewhere); the class
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) filler (iblk m c 0 t)
    | ⟨1, _⟩ => win0_1.fill (grid0.coords t) filler (iblk m c 1 t)
    | ⟨2, _⟩ => win0_2.fill (grid0.coords t) filler (iblk m c 2 t)
    | ⟨3, _⟩ => win0_3.fill (grid0.coords t) filler (outblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) filler (iblk m c 0 t) := by dsimp only [dats]
theorem after_1 (c : Dev nD) (t : Fin cfg0.N) : (dats m 0 c).after 1 t = win0_1.fill (grid0.coords t) filler (iblk m c 1 t) := by dsimp only [dats]
theorem after_2 (c : Dev nD) (t : Fin cfg0.N) : (dats m 0 c).after 2 t = win0_2.fill (grid0.coords t) filler (iblk m c 2 t) := by dsimp only [dats]
theorem after_3 (c : Dev nD) (t : Fin cfg0.N) : (dats m 0 c).after 3 t = win0_3.fill (grid0.coords t) filler (outblk m c t) := by dsimp only [dats]

/-- An input's buffer, fetched at every point, arrives holding its block on the rows inside the array and `d` elsewhere. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-! ## The body obligation -/

/-- On the rows inside the array the combination of three filled-out blocks is the combination of the blocks. -/
theorem cut_comb (t : Fin cfg0.N) (d0 d1 d2 : S2560x128.Idx → Elt F .f32)
    (g0 : (win0_0.xblock (grid0.coords t)).Idx → Elt F .f32) (g1 : (win0_1.xblock (grid0.coords t)).Idx → Elt F .f32)
    (g2 : (win0_2.xblock (grid0.coords t)).Idx → Elt F .f32) :
    win0_3.cut (grid0.coords t) (comb (win0_0.fill (grid0.coords t) d0 g0) (win0_1.fill (grid0.coords t) d1 g1) (win0_2.fill (grid0.coords t) d2 g2))
      = fun j => FloatOps.addf (FloatOps.mulf (g2 j) (g0 j)) (g1 j) := by
  funext j
  show FloatOps.addf (FloatOps.mulf (win0_2.fill (grid0.coords t) d2 g2 (win0_3.xinj (grid0.coords t) j))
      (win0_0.fill (grid0.coords t) d0 g0 (win0_3.xinj (grid0.coords t) j))) (win0_1.fill (grid0.coords t) d1 g1 (win0_3.xinj (grid0.coords t) j)) = _
  have h0 : win0_0.fill (grid0.coords t) d0 g0 (win0_3.xinj (grid0.coords t) j) = g0 j := win0_0.fill_xinj (grid0.coords t) d0 g0 j
  have h1 : win0_1.fill (grid0.coords t) d1 g1 (win0_3.xinj (grid0.coords t) j) = g1 j := win0_1.fill_xinj (grid0.coords t) d1 g1 j
  have h2 : win0_2.fill (grid0.coords t) d2 g2 (win0_3.xinj (grid0.coords t) j) = g2 j := win0_2.fill_xinj (grid0.coords t) d2 g2 j
  rw [h0, h1, h2]

/-- The library's body obligation in its loose form, at every point: the three inputs' buffers arrive holding their blocks
    filled out with anything, the result's holding anything; the body leaves the inputs' as they were and the result's at
    the combination of the three, which on the rows inside the array is the combination of the blocks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_0.fill (grid0.coords t) d0 (iblk m c 0 t)) (win0_1.fill (grid0.coords t) d1 (iblk m c 1 t))
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [after_0, win0_0.cut_fill]; iexact H0
  isplitl [H1]
  · iexists d1
    rw [after_1, win0_1.cut_fill]; iexact H1
  isplitl [H2]
  · iexists d2
    rw [after_2, win0_2.cut_fill]; iexact H2
  · iexists stored (win0_0.fill (grid0.coords t) d0 (iblk m c 0 t)) (win0_1.fill (grid0.coords t) d1 (iblk m c 1 t))
      (win0_2.fill (grid0.coords t) d2 (iblk m c 2 t))
    rw [after_3, win0_3.cut_fill]
    have h : win0_3.fill (grid0.coords t) (stored (win0_0.fill (grid0.coords t) d0 (iblk m c 0 t)) (win0_1.fill (grid0.coords t) d1 (iblk m c 1 t))
          (win0_2.fill (grid0.coords t) d2 (iblk m c 2 t))) (outblk m c t)
        = stored (win0_0.fill (grid0.coords t) d0 (iblk m c 0 t)) (win0_1.fill (grid0.coords t) d1 (iblk m c 1 t))
          (win0_2.fill (grid0.coords t) d2 (iblk m c 2 t)) := by
      have hc := cut_comb (F := F) t d0 d1 d2 (iblk m c 0 t) (iblk m c 1 t) (iblk m c 2 t)
      rw [← stored_eq] at hc
      have := win0_3.fill_cut (grid0.coords t) (stored (win0_0.fill (grid0.coords t) d0 (iblk m c 0 t)) (win0_1.fill (grid0.coords t) d1 (iblk m c 1 t))
          (win0_2.fill (grid0.coords t) d2 (iblk m c 2 t)))
      rw [hc] at this
      exact this
    rw [h]; iexact H3

/-! ## The run and the frame -/

set_option backward.isDefEq.respectTransparency.types false in
/-- Every weakly fair execution of @main terminates, faulting nowhere, with every array of the pipeline at what the
    library computes from the proof data and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run read at the three argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Table

end
-- ==== Proof.TableBodyIdeal.lean ====
/-
  The node table's elementwise pass, as the pipeline runs it.

  The kernel walks three [12500, 128] arrays (the node features, the additive term and the per-node coefficient, each
  the row-major re-reading of a [100000, 16] array) in five blocks of 2560 rows and writes, entry by entry,
  coefficient * feature + additive term. 5 * 2560 = 12800 > 12500: the last block overhangs the arrays by 300
  rows. On those rows a staging buffer holds words nothing names, the body computes from them words nothing reads, and
  the write-back moves only the rows inside the array. So the proof data describe each staging buffer on the rows
  inside the array only: an input buffer holds its block there, and the result's buffer holds the combination of the three
  input blocks there.

  This module gives: the body's triple on whole staging buffers at any contents (the result's buffer ends at the
  entrywise combination of the other three), the proof data, the body obligation in the loose form that speaks of the rows inside
  the array only, the run of @main around the region, and the frame read off that run.
-/
import proofs.«173388_j2585570312451_2_alg».proof.Proof.Gen.KernelIdeal.Frame
import proofs.«173388_j2585570312451_2_alg».proof.Proof.Gen.KernelIdeal.Skeleton
import Idealize.ShloMosaic.Lib.Pipeline.Kit
import Idealize.ShloMosaic.Lib.Pipeline.Frame
import Idealize.ShloMosaic.Lib.Pipeline.FrameSuffix
import Idealize.ShloMosaic.Lib.Pipeline.Value
import Idealize.ShloMosaic.Lib.Tactic

set_option maxRecDepth 16384

noncomputable section

namespace Cert.KernelIdeal.Table

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers -/

/-- The whole 2560 x 128 rectangle every access of the body goes through. -/
abbrev whole : Rect S2560x128 := Rect.unit (s := S2560x128) ![0, 0] S2560x128.size inb_S2560x128_S2560x128_0_0

theorem zeros : (![0, 0] : Fin 2 → Nat) = fun _ => 0 := funext fun a => by fin_cases a <;> rfl

/-- What the body leaves in the result's buffer when the feature, additive and coefficient buffers hold `x`, `e`, `k`:
    its one store, of `k * x + e` entry by entry, through the whole rectangle. -/
def stored (x e k : Vec F S2560x128 .f32) : Vec F S2560x128 .f32 :=
  View.canon [⟨whole, k0_pay1 (View.ld k whole) (View.ld x whole) (View.ld e whole)⟩]

/-- The same, entry by entry. -/
def comb (x e k : S2560x128.Idx → Elt F .f32) : S2560x128.Idx → Elt F .f32 :=
  fun j => FloatOps.addf (FloatOps.mulf (k j) (x j)) (e j)

theorem stored_eq (x e k : Vec F S2560x128 .f32) : stored x e k = comb x e k := by
  unfold stored
  rw [View.canon_unit_zero zeros]
  simp only [View.ld_unit_zero (S := S2560x128) zeros]
  unfold k0_pay1
  simp only [shapeCast_self]
  rfl

theorem cover (p0 : Vec F S2560x128 .f32) (y : S2560x128.Idx) :
    ∃ pc ∈ ([⟨whole, p0⟩] : List (View.Piece (Elt F) S2560x128 .f32)), y ∈ pc.1.set :=
  View.cover_of_tiled [⟨whole, p0⟩] S2560x128.size (by rfl) y

set_option maxHeartbeats 1000000 in
/-- The body on four whole staging buffers, the inputs' at any contents and the result's at anything: it loads the three
    inputs (and, unused, the result's buffer), and stores the combination; the inputs' buffers are left as they were. -/
theorem sound_kernel (c : Dev nD) (E : Set ℕ) (i : grid0.Coords)
    (arg1 : Memref sig .tc .vmem S2560x128 .f32) (harg1 : arg1.IsWhole) (arg2 : Memref sig .tc .vmem S2560x128 .f32) (harg2 : arg2.IsWhole)
    (arg3 : Memref sig .tc .vmem S2560x128 .f32) (harg3 : arg3.IsWhole) (arg4 : Memref sig .tc .vmem S2560x128 .f32) (harg4 : arg4.IsWhole)
    (x0 x1 x2 : Vec F S2560x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (stored x0 x1 x2)) -∗ K ⟨⟩))
      ⊢ wp frame (wpE (defs₀ (F := F)) Variants.none c none) E (cc0__combine_table_kernel i arg1 harg1 arg2 harg2 arg3 harg3 arg4 harg4) K := by
  simp only [cc0__combine_table_kernel_eq_skeleton]; unfold cc0__combine_table_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data -/

/-- A filler for the rows of a staging buffer past the array's end: nothing reads it. -/
def filler : S2560x128.Idx → Elt F .f32 := fun _ => Scalar.ofBits .f32 0#32

/-- The rows inside the array of the result's block at point `t`: the combination of the three input blocks there. -/
def outblk (c : Dev nD) (t : Fin cfg0.N) : (win0_3.xblock (grid0.coords t)).Idx → Elt F .f32 :=
  fun j => FloatOps.addf (FloatOps.mulf (iblk m c 2 t j) (iblk m c 0 t j)) (iblk m c 1 t j)

/-- The proof data: the arrays as the region finds them; after the body at point `t` each input's buffer holds its
    block and the result's buffer the combination, on the rows inside the array (the filler elsewhere); the class
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) filler (iblk m c 0 t)
    | ⟨1, _⟩ => win0_1.fill (grid0.coords t) filler (iblk m c 1 t)
    | ⟨2, _⟩ => win0_2.fill (grid0.coords t) filler (iblk m c 2 t)
    | ⟨3, _⟩ => win0_3.fill (grid0.coords t) filler (outblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) filler (iblk m c 0 t) := by dsimp only [dats]
theorem after_1 (c : Dev nD) (t : Fin cfg0.N) : (dats m 0 c).after 1 t = win0_1.fill (grid0.coords t) filler (iblk m c 1 t) := by dsimp only [dats]
theorem after_2 (c : Dev nD) (t : Fin cfg0.N) : (dats m 0 c).after 2 t = win0_2.fill (grid0.coords t) filler (iblk m c 2 t) := by dsimp only [dats]
theorem after_3 (c : Dev nD) (t : Fin cfg0.N) : (dats m 0 c).after 3 t = win0_3.fill (grid0.coords t) filler (outblk m c t) := by dsimp only [dats]

/-- An input's buffer, fetched at every point, arrives holding its block on the rows inside the array and `d` elsewhere. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-! ## The body obligation -/

/-- On the rows inside the array the combination of three filled-out blocks is the combination of the blocks. -/
theorem cut_comb (t : Fin cfg0.N) (d0 d1 d2 : S2560x128.Idx → Elt F .f32)
    (g0 : (win0_0.xblock (grid0.coords t)).Idx → Elt F .f32) (g1 : (win0_1.xblock (grid0.coords t)).Idx → Elt F .f32)
    (g2 : (win0_2.xblock (grid0.coords t)).Idx → Elt F .f32) :
    win0_3.cut (grid0.coords t) (comb (win0_0.fill (grid0.coords t) d0 g0) (win0_1.fill (grid0.coords t) d1 g1) (win0_2.fill (grid0.coords t) d2 g2))
      = fun j => FloatOps.addf (FloatOps.mulf (g2 j) (g0 j)) (g1 j) := by
  funext j
  show FloatOps.addf (FloatOps.mulf (win0_2.fill (grid0.coords t) d2 g2 (win0_3.xinj (grid0.coords t) j))
      (win0_0.fill (grid0.coords t) d0 g0 (win0_3.xinj (grid0.coords t) j))) (win0_1.fill (grid0.coords t) d1 g1 (win0_3.xinj (grid0.coords t) j)) = _
  have h0 : win0_0.fill (grid0.coords t) d0 g0 (win0_3.xinj (grid0.coords t) j) = g0 j := win0_0.fill_xinj (grid0.coords t) d0 g0 j
  have h1 : win0_1.fill (grid0.coords t) d1 g1 (win0_3.xinj (grid0.coords t) j) = g1 j := win0_1.fill_xinj (grid0.coords t) d1 g1 j
  have h2 : win0_2.fill (grid0.coords t) d2 g2 (win0_3.xinj (grid0.coords t) j) = g2 j := win0_2.fill_xinj (grid0.coords t) d2 g2 j
  rw [h0, h1, h2]

/-- The library's body obligation in its loose form, at every point: the three inputs' buffers arrive holding their blocks
    filled out with anything, the result's holding anything; the body leaves the inputs' as they were and the result's at
    the combination of the three, which on the rows inside the array is the combination of the blocks. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_0.fill (grid0.coords t) d0 (iblk m c 0 t)) (win0_1.fill (grid0.coords t) d1 (iblk m c 1 t))
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [after_0, win0_0.cut_fill]; iexact H0
  isplitl [H1]
  · iexists d1
    rw [after_1, win0_1.cut_fill]; iexact H1
  isplitl [H2]
  · iexists d2
    rw [after_2, win0_2.cut_fill]; iexact H2
  · iexists stored (win0_0.fill (grid0.coords t) d0 (iblk m c 0 t)) (win0_1.fill (grid0.coords t) d1 (iblk m c 1 t))
      (win0_2.fill (grid0.coords t) d2 (iblk m c 2 t))
    rw [after_3, win0_3.cut_fill]
    have h : win0_3.fill (grid0.coords t) (stored (win0_0.fill (grid0.coords t) d0 (iblk m c 0 t)) (win0_1.fill (grid0.coords t) d1 (iblk m c 1 t))
          (win0_2.fill (grid0.coords t) d2 (iblk m c 2 t))) (outblk m c t)
        = stored (win0_0.fill (grid0.coords t) d0 (iblk m c 0 t)) (win0_1.fill (grid0.coords t) d1 (iblk m c 1 t))
          (win0_2.fill (grid0.coords t) d2 (iblk m c 2 t)) := by
      have hc := cut_comb (F := F) t d0 d1 d2 (iblk m c 0 t) (iblk m c 1 t) (iblk m c 2 t)
      rw [← stored_eq] at hc
      have := win0_3.fill_cut (grid0.coords t) (stored (win0_0.fill (grid0.coords t) d0 (iblk m c 0 t)) (win0_1.fill (grid0.coords t) d1 (iblk m c 1 t))
          (win0_2.fill (grid0.coords t) d2 (iblk m c 2 t)))
      rw [hc] at this
      exact this
    rw [h]; iexact H3

/-! ## The run and the frame -/

set_option backward.isDefEq.respectTransparency.types false in
/-- Every weakly fair execution of @main terminates, faulting nowhere, with every array of the pipeline at what the
    library computes from the proof data and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run read at the three argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Table

end
-- ==== Proof.TableFinite.lean ====
/-
  From the precondition to real numbers.

  The precondition says, of each float argument, that every entry's absolute value is below +∞ (an `and` over all
  entries of the comparison). On the extended reals |x| = max x (-x), and max x (-x) < ⊤ excludes both infinities:
  every entry of the feature array is a real number.
-/
import proofs.«173388_j2585570312451_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.TableFinite

open Idealize.ShloMosaic Cert.Pre_finite_inputs

instance : Subsingleton S_.Idx := ⟨fun a b => funext fun d => d.elim0⟩

theorem inf_val : Ideal.ofBits .f32 0x7F800000#32 = ⊤ := by simp [Ideal.ofBits, Ideal.ieee]

/-- An extended real whose absolute value is below +∞ is a real number. -/
theorem real_of_abs_lt (x : EReal) (h : Ideal.cmp .olt (max x (-x)) ⊤ = 1#1) : ∃ a : ℝ, x = (a : EReal) := by
  induction x using EReal.rec with
  | bot => exfalso; revert h; simp [Ideal.cmp]
  | coe a => exact ⟨a, rfl⟩
  | top => exfalso; revert h; simp [Ideal.cmp]

/-- Under the precondition every entry of the first argument is a real number. -/
theorem real_of_pre [Facts] (x0 x1 : FVec Ideal S100000x16 .f32) (x2 : IVec S2x3200000 32)
    (h : fn (F := Ideal) x0 x1 x2 = fun _ => 1#1) (i : S100000x16.Idx) : ∃ a : ℝ, x0 i = (a : EReal) := by
  have h0 := congrFun h ValueIdx.ix0
  dsimp only [fn] at h0
  have h1 := (IntOp.andi_eq_one.mp h0).1
  have h2 := Host.reduce_andi_all _ _ _ _ _ h1 i
  refine real_of_abs_lt (x0 i) ?_
  rw [← inf_val]
  exact h2

end Cert.TableFinite

end
-- ==== Proof.LibScatterFold.lean ====
/- An accumulating scatter whose body adds, read at an index, in any commutative additive monoid.

   The host scatter is a left fold over the update positions in row-major order: each update whose result index
   falls inside the operand replaces the element there by that element plus the update, and an update whose result
   index falls outside is dropped. Since the addition is commutative and associative the fold's value at an operand
   index is the operand's element plus the sum of the updates that land on that index, whatever the order. The
   integer case: a scatter of ones into zeros counts, modulo the word size, the updates landing on each index. -/
import Idealize.ShloMosaic.PureOps.Ideal
import Idealize.ShloMosaic.Lib.ValueIdx

noncomputable section

namespace Cert.ScatterFold

open Idealize.ShloMosaic

variable {α : Type} [AddCommMonoid α] {s si u : Shape} {w : Nat}

/-- The fold over ANY list of update positions, read at `i`: the start value there plus the updates of the list that
    land on `i`. -/
theorem foldl_apply [DecidableEq s.Idx] (d : ScatterDims s si u) (idx : IVec si w) (upd : u.Idx → α)
    (L : List (Fin u.numel)) (x : s.Idx → α) (i : s.Idx) :
    (L.foldl (fun r n =>
      match d.resultIdx? (u.rowMajor.symm n) idx with
      | some i₀ => fun i' => if i' = i₀ then r i₀ + upd (u.rowMajor.symm n) else r i'
      | none => r) x) i
    = x i + (L.map fun n => if d.resultIdx? (u.rowMajor.symm n) idx = some i then upd (u.rowMajor.symm n) else 0).sum := by
  induction L generalizing x with
  | nil => simp
  | cons n L ih =>
    rw [List.foldl_cons, ih, List.map_cons, List.sum_cons, ← add_assoc]
    congr 1
    cases h : d.resultIdx? (u.rowMajor.symm n) idx with
    | none => simp
    | some i₀ =>
      simp only [Option.some.injEq]
      by_cases hi : i = i₀
      · subst hi; simp
      · rw [if_neg hi, if_neg (Ne.symm hi), add_zero]

/-- THE ADDING SCATTER READ AT `i`: the operand's element plus the sum of the updates whose result index is `i`. -/
theorem scatter_add_apply (d : ScatterDims s si u) (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_apply d idx upd _ x i).trans ?_
  congr 1
  rw [← Fin.sum_univ_def]
  exact Equiv.sum_comp u.rowMajor.symm (fun j => if d.resultIdx? j idx = some i then upd j else 0)

end Cert.ScatterFold

end
-- ==== Proof.LibScatterRows.lean ====
/- Accumulating scatters whose start index is one row number per update.

   An accumulating scatter adds every update element into the operand element its result index names, and drops
   an update whose result index falls outside the operand. Two shapes of it are read here at an index.

   Rows: the operand is `[R, C]`, the scatter indices are `[N, 1]` and the updates are `[N, C]`; update row `n` is
   added, column by column, into operand row `idx n` (the start index read as a signed integer, not clamped).
   Update element `(n, c)` therefore lands on operand element `(r, c')` exactly when `idx n = r` and `c = c'`, and
   the scatter's value at `(r, c)` is the operand's element plus the sum, over all `n` with `idx n = r`, of
   update `(n, c)`. An index that is negative or at least `R` is the number of no row, so such an update appears
   in no sum: no range hypothesis is needed.

   Flat: the operand is `[R]`, the updates are `[N]`; update `n` is added into operand element `idx n`, and the
   value at `r` is the operand's element plus the sum of the updates `n` with `idx n = r`. -/
import Idealize.ShloMosaic.PureOps.Ideal
import Idealize.ShloMosaic.Lib.ValueIdx

noncomputable section

namespace Cert.Voxel.Ref

open Idealize.ShloMosaic Idealize.ShloMosaic.ValueIdx

/-- The scatter-indices index `[n, 0]` that holds update `n`'s row number. -/
abbrev rowIdx {N : Nat} (n : Fin N) : (⟨2, ![N, 1]⟩ : Shape).Idx := ix2 n (⟨0, Nat.one_pos⟩ : Fin 1)

/-! ## Rows: operand `[R, C]`, indices `[N, 1]`, updates `[N, C]` -/

section Rows
variable {R N C : Nat}

/-- The dimension numbers of a scatter of rows: the updates' axis 1 is the window axis and goes to the operand's
    axis 1; the operand's axis 0 is inserted and receives the start index, whose one component is read along the
    scatter indices' axis 1. -/
abbrev rowsDims (R N C : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

/-- On the operand's axis 0 the window of update `(n, c)` starts at the row number `idx[n, 0]`, read signed. -/
theorem rows_start0 {w : Nat} (wf : ScatterDims.WF ⟨2, ![R, C]⟩ ⟨2, ![N, 1]⟩ ⟨2, ![N, C]⟩ [1] [0] [0] 1)
    (idx : IVec ⟨2, ![N, 1]⟩ w) (n : Fin N) (c : Fin C) :
    (rowsDims R N C wf).start (ix2 n c) idx 0 = (idx (rowIdx n)).toInt := by
  unfold ScatterDims.start
  rw [dif_pos (show (0 : Fin 2) ∈ (rowsDims R N C wf).scatterDimsToOperandDims from List.mem_singleton.mpr rfl)]
  have hsi : (rowsDims R N C wf).siIdx (ix2 n c) ⟨List.idxOf (0 : Fin 2) (rowsDims R N C wf).scatterDimsToOperandDims,
      List.idxOf_lt_length_iff.2 (List.mem_singleton.mpr rfl)⟩ = rowIdx n := by
    funext b; refine Fin.ext ?_
    match b with
    | ⟨0, _⟩ => rfl
    | ⟨1, _⟩ => rfl
  rw [hsi]

/-- On the operand's axis 1, which no start-index component names, the window starts at `0`. -/
theorem rows_start1 {w : Nat} (wf : ScatterDims.WF ⟨2, ![R, C]⟩ ⟨2, ![N, 1]⟩ ⟨2, ![N, C]⟩ [1] [0] [0] 1)
    (idx : IVec ⟨2, ![N, 1]⟩ w) (j : (⟨2, ![N, C]⟩ : Shape).Idx) :
    (rowsDims R N C wf).start j idx 1 = 0 := by
  have h : (1 : Fin 2) ∉ (rowsDims R N C wf).scatterDimsToOperandDims := by
    show (1 : Fin 2) ∉ [(0 : Fin 2)]; decide
  unfold ScatterDims.start
  rw [dif_neg h]

/-- The operand's axis 0 is inserted: the window coordinate on it is `0`. -/
theorem rows_window0 (wf : ScatterDims.WF ⟨2, ![R, C]⟩ ⟨2, ![N, 1]⟩ ⟨2, ![N, C]⟩ [1] [0] [0] 1)
    (j : (⟨2, ![N, C]⟩ : Shape).Idx) :
    (rowsDims R N C wf).window j 0 = 0 := by
  have h : (0 : Fin 2) ∉ (rowsDims R N C wf).sKept := by
    show (0 : Fin 2) ∉ (List.finRange 2).filter (· ∉ [(0 : Fin 2)]); decide
  unfold ScatterDims.window
  rw [dif_neg h]

/-- On the operand's axis 1 the window coordinate of update `(n, c)` is its column `c`. -/
theorem rows_window1 (wf : ScatterDims.WF ⟨2, ![R, C]⟩ ⟨2, ![N, 1]⟩ ⟨2, ![N, C]⟩ [1] [0] [0] 1)
    (n : Fin N) (c : Fin C) :
    (rowsDims R N C wf).window (ix2 n c) 1 = c.val := by
  have h : (1 : Fin 2) ∈ (rowsDims R N C wf).sKept := by
    show (1 : Fin 2) ∈ (List.finRange 2).filter (· ∉ [(0 : Fin 2)]); decide
  unfold ScatterDims.window
  rw [dif_pos h]
  rfl

/-- Update element `(n, c)` lands on operand element `(r, c')` exactly when its row number is `r` and its column
    is `c'`. A row number outside `0 … R - 1` equals no `r`, and such an update is dropped. -/
theorem rows_resultIdx_eq_some {w : Nat} (wf : ScatterDims.WF ⟨2, ![R, C]⟩ ⟨2, ![N, 1]⟩ ⟨2, ![N, C]⟩ [1] [0] [0] 1)
    (idx : IVec ⟨2, ![N, 1]⟩ w) (n : Fin N) (c : Fin C) (r : Fin R) (c' : Fin C) :
    (rowsDims R N C wf).resultIdx? (ix2 n c) idx = some (ix2 r c')
      ↔ (idx (rowIdx n)).toInt = (r.val : Int) ∧ c = c' := by
  unfold ScatterDims.resultIdx?
  constructor
  · intro h
    split at h
    · rename_i hall
      have e := Option.some.inj h
      have e0 : ((rowsDims R N C wf).start (ix2 n c) idx 0 + (rowsDims R N C wf).window (ix2 n c) 0).toNat = r.val :=
        congrArg (fun f : (⟨2, ![R, C]⟩ : Shape).Idx => (f 0).val) e
      have e1 : ((rowsDims R N C wf).start (ix2 n c) idx 1 + (rowsDims R N C wf).window (ix2 n c) 1).toNat = c'.val :=
        congrArg (fun f : (⟨2, ![R, C]⟩ : Shape).Idx => (f 1).val) e
      have h0 := (hall 0).1
      rw [rows_start0, rows_window0] at e0 h0
      rw [rows_start1, rows_window1] at e1
      exact ⟨by omega, Fin.ext (by omega)⟩
    · cases h
  · rintro ⟨h0, rfl⟩
    have hall : ∀ a, 0 ≤ (rowsDims R N C wf).start (ix2 n c) idx a + (rowsDims R N C wf).window (ix2 n c) a ∧
        (rowsDims R N C wf).start (ix2 n c) idx a + (rowsDims R N C wf).window (ix2 n c) a
          < (⟨2, ![R, C]⟩ : Shape).size a := by
      intro a
      match a with
      | ⟨0, _⟩ =>
        show 0 ≤ (rowsDims R N C wf).start (ix2 n c) idx 0 + (rowsDims R N C wf).window (ix2 n c) 0 ∧
          (rowsDims R N C wf).start (ix2 n c) idx 0 + (rowsDims R N C wf).window (ix2 n c) 0 < (R : Int)
        rw [rows_start0, rows_window0]; have := r.isLt; omega
      | ⟨1, _⟩ =>
        show 0 ≤ (rowsDims R N C wf).start (ix2 n c) idx 1 + (rowsDims R N C wf).window (ix2 n c) 1 ∧
          (rowsDims R N C wf).start (ix2 n c) idx 1 + (rowsDims R N C wf).window (ix2 n c) 1 < (C : Int)
        rw [rows_start1, rows_window1]; have := c.isLt; omega
    rw [dif_pos hall]
    congr 1
    funext a
    refine Fin.ext ?_
    match a with
    | ⟨0, _⟩ =>
      show ((rowsDims R N C wf).start (ix2 n c) idx 0 + (rowsDims R N C wf).window (ix2 n c) 0).toNat = r.val
      rw [rows_start0, rows_window0]; omega
    | ⟨1, _⟩ =>
      show ((rowsDims R N C wf).start (ix2 n c) idx 1 + (rowsDims R N C wf).window (ix2 n c) 1).toNat = c.val
      rw [rows_start1, rows_window1]; omega

/-- THE SCATTER OF ROWS READ AT `(r, c)`: the operand's element plus the sum of column `c` of the update rows whose
    row number is `r`. The sum over the update elements that land on `(r, c)` is split into the update's row and
    column; in each row at most the column `c` contributes. -/
theorem rows_scatterAdd_apply {w : Nat} (wf : ScatterDims.WF ⟨2, ![R, C]⟩ ⟨2, ![N, 1]⟩ ⟨2, ![N, C]⟩ [1] [0] [0] 1)
    (x : (⟨2, ![R, C]⟩ : Shape).Idx → EReal) (idx : IVec ⟨2, ![N, 1]⟩ w) (upd : (⟨2, ![N, C]⟩ : Shape).Idx → EReal)
    (r : Fin R) (c : Fin C) :
    Ideal.hostScatterAdd (rowsDims R N C wf) x idx upd (ix2 r c)
      = x (ix2 r c) + ∑ n : Fin N, if (idx (rowIdx n)).toInt = (r.val : Int) then upd (ix2 n c) else 0 := by
  unfold Ideal.hostScatterAdd
  congr 1
  rw [Finset.sum_filter, sum_idx2]
  refine Finset.sum_congr rfl fun n _ => ?_
  simp only [rows_resultIdx_eq_some]
  by_cases h : (idx (rowIdx n)).toInt = (r.val : Int)
  · simp only [h, true_and, Finset.sum_ite_eq', Finset.mem_univ, if_true]
  · simp only [h, false_and, if_false, Finset.sum_const_zero]

end Rows

/-! ## Flat: operand `[R]`, indices `[N, 1]`, updates `[N]` -/

section Flat
variable {R N : Nat}

/-- The dimension numbers of a scatter of single elements: the updates have no window axis; the operand's one
    axis is inserted and receives the start index. -/
abbrev flatDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- Update `n`'s window starts at the number `idx[n, 0]`, read signed. -/
theorem flat_start {w : Nat} (wf : ScatterDims.WF ⟨1, ![R]⟩ ⟨2, ![N, 1]⟩ ⟨1, ![N]⟩ [] [0] [0] 1)
    (idx : IVec ⟨2, ![N, 1]⟩ w) (n : Fin N) :
    (flatDims R N wf).start (ix1 n) idx 0 = (idx (rowIdx n)).toInt := by
  unfold ScatterDims.start
  rw [dif_pos (show (0 : Fin 1) ∈ (flatDims R N wf).scatterDimsToOperandDims from List.mem_singleton.mpr rfl)]
  have hsi : (flatDims R N wf).siIdx (ix1 n) ⟨List.idxOf (0 : Fin 1) (flatDims R N wf).scatterDimsToOperandDims,
      List.idxOf_lt_length_iff.2 (List.mem_singleton.mpr rfl)⟩ = rowIdx n := by
    funext b; refine Fin.ext ?_
    match b with
    | ⟨0, _⟩ => rfl
    | ⟨1, _⟩ => rfl
  rw [hsi]

/-- The operand's one axis is inserted: the window coordinate on it is `0`. -/
theorem flat_window (wf : ScatterDims.WF ⟨1, ![R]⟩ ⟨2, ![N, 1]⟩ ⟨1, ![N]⟩ [] [0] [0] 1)
    (j : (⟨1, ![N]⟩ : Shape).Idx) :
    (flatDims R N wf).window j 0 = 0 := by
  have h : (0 : Fin 1) ∉ (flatDims R N wf).sKept := by
    show (0 : Fin 1) ∉ (List.finRange 1).filter (· ∉ [(0 : Fin 1)]); decide
  unfold ScatterDims.window
  rw [dif_neg h]

/-- Update `n` lands on operand element `r` exactly when its number is `r`. -/
theorem flat_resultIdx_eq_some {w : Nat} (wf : ScatterDims.WF ⟨1, ![R]⟩ ⟨2, ![N, 1]⟩ ⟨1, ![N]⟩ [] [0] [0] 1)
    (idx : IVec ⟨2, ![N, 1]⟩ w) (n : Fin N) (r : Fin R) :
    (flatDims R N wf).resultIdx? (ix1 n) idx = some (ix1 r) ↔ (idx (rowIdx n)).toInt = (r.val : Int) := by
  unfold ScatterDims.resultIdx?
  constructor
  · intro h
    split at h
    · rename_i hall
      have e := Option.some.inj h
      have e0 : ((flatDims R N wf).start (ix1 n) idx 0 + (flatDims R N wf).window (ix1 n) 0).toNat = r.val :=
        congrArg (fun f : (⟨1, ![R]⟩ : Shape).Idx => (f 0).val) e
      have h0 := (hall 0).1
      rw [flat_start, flat_window] at e0 h0
      omega
    · cases h
  · intro h0
    have hall : ∀ a, 0 ≤ (flatDims R N wf).start (ix1 n) idx a + (flatDims R N wf).window (ix1 n) a ∧
        (flatDims R N wf).start (ix1 n) idx a + (flatDims R N wf).window (ix1 n) a
          < (⟨1, ![R]⟩ : Shape).size a := by
      intro a
      match a with
      | ⟨0, _⟩ =>
        show 0 ≤ (flatDims R N wf).start (ix1 n) idx 0 + (flatDims R N wf).window (ix1 n) 0 ∧
          (flatDims R N wf).start (ix1 n) idx 0 + (flatDims R N wf).window (ix1 n) 0 < (R : Int)
        rw [flat_start, flat_window]; have := r.isLt; omega
    rw [dif_pos hall]
    congr 1
    funext a
    refine Fin.ext ?_
    match a with
    | ⟨0, _⟩ =>
      show ((flatDims R N wf).start (ix1 n) idx 0 + (flatDims R N wf).window (ix1 n) 0).toNat = r.val
      rw [flat_start, flat_window]; omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER READ AT `r`: the operand's element plus the sum of the updates whose number is `r`. -/
theorem flat_scatterAdd_apply {w : Nat} (wf : ScatterDims.WF ⟨1, ![R]⟩ ⟨2, ![N, 1]⟩ ⟨1, ![N]⟩ [] [0] [0] 1)
    (x : (⟨1, ![R]⟩ : Shape).Idx → EReal) (idx : IVec ⟨2, ![N, 1]⟩ w) (upd : (⟨1, ![N]⟩ : Shape).Idx → EReal)
    (r : Fin R) :
    Ideal.hostScatterAdd (flatDims R N wf) x idx upd (ix1 r)
      = x (ix1 r) + ∑ n : Fin N, if (idx (rowIdx n)).toInt = (r.val : Int) then upd (ix1 n) else 0 := by
  unfold Ideal.hostScatterAdd
  congr 1
  rw [Finset.sum_filter, sum_idx1]
  refine Finset.sum_congr rfl fun n _ => ?_
  simp only [flat_resultIdx_eq_some]

end Flat

end Cert.Voxel.Ref

end
-- ==== Proof.LibGatherRows.lean ====
/- Gathers whose start index is one row number per result row.

   A gather reads, for each result index, one element of the operand: on every operand axis the coordinate is the
   clamped start of the slice plus the offset inside the slice. Two shapes of it are read here at an index; in both
   the start indices are a column `[E, 1]`, whose entry `idx[n, 0]` is read as a signed integer and clamped into
   `[0, N - 1]` (the slice has one row, so the last admissible start is `N - 1`); a negative number clamps to `0`.

   Flat: the operand is `[N]`, the slice is one element, the result is `[E]`; result element `n` is the operand at
   the clamped `idx[n, 0]`.

   Rows: the operand is `[N, C]`, the slice is one whole row `[1, C]`, the result is `[E, C]`; result element
   `(n, c)` is the operand at (the clamped `idx[n, 0]`, `c`): axis 0 is collapsed and takes the start, axis 1 is
   the one offset axis, starts at `0` and takes the result's column. -/
import Idealize.ShloMosaic.PureOps.Ideal
import Idealize.ShloMosaic.Lib.ValueIdx

noncomputable section

namespace Cert.GatherRows

open Idealize.ShloMosaic Idealize.ShloMosaic.ValueIdx

/-- The start-indices index `[n, 0]` that holds result row `n`'s row number. -/
abbrev colIdx {E : Nat} (n : Fin E) : (⟨2, ![E, 1]⟩ : Shape).Idx := ix2 n (⟨0, Nat.one_pos⟩ : Fin 1)

/-- A signed word clamped into `[0, N - 1]`, as a coordinate below `N`. -/
abbrev clampRow {w : Nat} (N : Nat) (hN : 0 < N) (v : BitVec w) : Fin N := ⟨min v.toInt.toNat (N - 1), by omega⟩

/-! ## Flat: operand `[N]`, start indices `[E, 1]`, result `[E]` -/

section Flat
variable {α : Type}

/-- The dimension numbers of a gather of single elements: no offset axis; the operand's one axis is collapsed and
    receives the start index, whose one component is read along the start indices' axis 1. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `n`: the operand at the start index `idx[n, 0]`, read signed and clamped into
    `[0, N - 1]`. -/
theorem flat_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (n : Fin E) :
    Host.gather (flatDims N E wf) x idx (ix1 n) = x (ix1 (clampRow N hN (idx (colIdx n)))) := by
  unfold Host.gather
  congr 1
  funext a
  obtain rfl : a = 0 := Subsingleton.elim _ _
  refine Fin.ext ?_
  show (flatDims N E wf).start (ix1 n) idx 0 + (flatDims N E wf).batchCoord (ix1 n) 0
    + (flatDims N E wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 n) ⟨List.idxOf (0 : Fin 1) (flatDims N E wf).startIndexMap,
      List.idxOf_lt_length_iff.2 (List.mem_singleton.mpr rfl)⟩ = colIdx n := by
    funext b; refine Fin.ext ?_
    match b with
    | ⟨0, _⟩ => rfl
    | ⟨1, _⟩ => rfl
  rw [hsi]
  rfl

end Flat

/-! ## Rows: operand `[N, C]`, start indices `[E, 1]`, result `[E, C]` -/

section Rows
variable {α : Type}

/-- The dimension numbers of a gather of whole rows: the result's axis 1 is the offset axis and reads the
    operand's axis 1; the operand's axis 0 is collapsed and receives the start index. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the operand's axis 0 the slice of result element `(n, c)` starts at the clamped row number. -/
theorem rows_start0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (n : Fin E) (c : Fin C) :
    (rowsDims N E C wf).start (ix2 n c) idx 0 = (clampRow N hN (idx (colIdx n))).val := by
  unfold GatherDims.start
  rw [dif_pos (show (0 : Fin 2) ∈ (rowsDims N E C wf).startIndexMap from List.mem_singleton.mpr rfl)]
  have hsi : (rowsDims N E C wf).siIdx (ix2 n c) ⟨List.idxOf (0 : Fin 2) (rowsDims N E C wf).startIndexMap,
      List.idxOf_lt_length_iff.2 (List.mem_singleton.mpr rfl)⟩ = colIdx n := by
    funext b; refine Fin.ext ?_
    match b with
    | ⟨0, _⟩ => rfl
    | ⟨1, _⟩ => rfl
  rw [hsi]
  rfl

/-- On the operand's axis 1, which no start-index component names, the slice starts at `0`. -/
theorem rows_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    (rowsDims N E C wf).start j idx 1 = 0 := by
  have h : (1 : Fin 2) ∉ (rowsDims N E C wf).startIndexMap := by
    show (1 : Fin 2) ∉ [(0 : Fin 2)]; decide
  unfold GatherDims.start
  rw [dif_neg h]

/-- The operand's axis 0 is collapsed: the offset on it is `0`. -/
theorem rows_off0 {N E C : Nat}
    (wf : GatherDims.WF ⟨2, ![N, C]⟩ ⟨2, ![E, 1]⟩ ⟨2, ![E, C]⟩ [1] [0] [] [0] [] 1 ![1, C])
    (j : (⟨2, ![E, C]⟩ : Shape).Idx) :
    (rowsDims N E C wf).offCoord j 0 = 0 :=
  GatherDims.offCoord_eq_zero _ _ _ (fun h => ((GatherDims.mem_sKept _ _).mp h).1 (List.mem_singleton.mpr rfl))

/-- On the operand's axis 1 the offset of result element `(n, c)` is its column `c`. -/
theorem rows_off1 {N E C : Nat}
    (wf : GatherDims.WF ⟨2, ![N, C]⟩ ⟨2, ![E, 1]⟩ ⟨2, ![E, C]⟩ [1] [0] [] [0] [] 1 ![1, C])
    (n : Fin E) (c : Fin C) :
    (rowsDims N E C wf).offCoord (ix2 n c) 1 = c.val := by
  have h : (1 : Fin 2) ∈ (rowsDims N E C wf).sKept := by
    show (1 : Fin 2) ∈ (List.finRange 2).filter (· ∉ [(0 : Fin 2)] ++ [])
    decide
  unfold GatherDims.offCoord
  rw [dif_pos h]
  rfl

/-- THE GATHER OF ROWS READ AT `(n, c)`: the operand at (the start index `idx[n, 0]` read signed and clamped into
    `[0, N - 1]`, `c`). -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (n : Fin E) (c : Fin C) :
    Host.gather (rowsDims N E C wf) x idx (ix2 n c) = x (ix2 (clampRow N hN (idx (colIdx n))) c) := by
  unfold Host.gather
  congr 1
  funext a
  refine Fin.ext ?_
  match a with
  | ⟨0, _⟩ =>
    show (rowsDims N E C wf).start (ix2 n c) idx 0 + (rowsDims N E C wf).batchCoord (ix2 n c) 0
      + (rowsDims N E C wf).offCoord (ix2 n c) 0 = _
    rw [GatherDims.batchCoord_eq_zero _ _ _ List.not_mem_nil, rows_off0, rows_start0 hN]
    rfl
  | ⟨1, _⟩ =>
    show (rowsDims N E C wf).start (ix2 n c) idx 1 + (rowsDims N E C wf).batchCoord (ix2 n c) 1
      + (rowsDims N E C wf).offCoord (ix2 n c) 1 = _
    rw [GatherDims.batchCoord_eq_zero _ _ _ List.not_mem_nil, rows_off1, rows_start1]
    show 0 + 0 + c.val = c.val
    omega

end Rows

end Cert.GatherRows

end
-- ==== Proof.TableSpec.lean ====
/-
  The specification both programs meet, and the three facts that join them.

  Edge `n` carries a 32-bit source word `word x2 n` (row 0 of the [2, E] index array). Two readings of it are used.
  The GATHERS read it normalised (a negative word gets the node count added, as numpy-style indexing does) and then
  clamped into [0, N - 1]: `rowOf`. The accumulating SCATTERS read it raw, signed, and drop it when it names no row.
  So the updates landing on row `r` are the edges whose raw word, read signed, is `r`: `hits x2 r`.

  The result at edge `n`, column `c`, with r = rowOf (word n):   (|hits r| - 1) * x[r, c] + extra[r, c].

  * An edge that hits row `r` (its raw word is r, with 0 ≤ r < N) also GATHERS row `r`: `rowOf_of_hit`.
  * A scatter of the word 1 into zeros by integer addition leaves at `r` the word |hits r|, which read signed is the
    number |hits r| because that number is at most E < 2^31: `count_word`, `toInt_count`.
  * For a real number a: the sum of a over the hits, minus a, is (|hits| - 1) * a: `sum_hits`, `law`. This is where
    finiteness is used: on the extended reals c * a - a = (c - 1) * a fails at a = ±∞.
-/
import Idealize.ShloMosaic.PureOps.Ideal
import Idealize.ShloMosaic.PureOps.Ideal.Laws
import Idealize.ShloMosaic.Lib.ValueIdx
import Idealize.ShloMosaic.Lib.IdealHost
import Mathlib.Data.BitVec
import proofs.«173388_j2585570312451_2_alg».proof.Proof.LibScatterFold
import proofs.«173388_j2585570312451_2_alg».proof.Proof.LibScatterRows
import proofs.«173388_j2585570312451_2_alg».proof.Proof.LibGatherRows

noncomputable section

namespace Cert.TableSpec

open Idealize.ShloMosaic Idealize.ShloMosaic.ValueIdx

/-- Nodes, edges, features. -/
abbrev NN : Nat := 100000
abbrev EE : Nat := 3200000
abbrev CC : Nat := 16

/-- Edge `n`'s source word: row 0 of the index array. -/
def word (x2 : (⟨2, ![2, EE]⟩ : Shape).Idx → BitVec 32) (n : Fin EE) : BitVec 32 :=
  x2 (ix2 (⟨0, by decide⟩ : Fin 2) n)

/-- The word as a gather reads it before clamping: a negative word gets the node count added. -/
def norm (v : BitVec 32) : BitVec 32 := Scalar.select (IntOp.cmpi .slt v 0#32) (IntOp.addi v 100000#32) v

/-- The row a gather reads for the word `v`. -/
def rowOf (v : BitVec 32) : Fin NN := Cert.GatherRows.clampRow NN (by decide) (norm v)

/-- The edges whose raw word, read signed, is the row number `r`. -/
def hits (x2 : (⟨2, ![2, EE]⟩ : Shape).Idx → BitVec 32) (r : Fin NN) : Finset (Fin EE) :=
  Finset.univ.filter fun n => (word x2 n).toInt = (r.val : Int)

/-- THE RESULT: at edge `n`, column `c`, with `r` the row edge `n` gathers. -/
def G (x0 x1 : (⟨2, ![NN, CC]⟩ : Shape).Idx → EReal) (x2 : (⟨2, ![2, EE]⟩ : Shape).Idx → BitVec 32) :
    (⟨2, ![EE, CC]⟩ : Shape).Idx → EReal :=
  fun i => ((((hits x2 (rowOf (word x2 (i 0)))).card : ℝ) : EReal) - 1) * x0 (ix2 (rowOf (word x2 (i 0))) (i 1))
    + x1 (ix2 (rowOf (word x2 (i 0))) (i 1))

/-- A word that is a row number is gathered as that row: it is not negative, so it is kept, and clamping a number
    below N changes nothing. -/
theorem rowOf_of_hit (v : BitVec 32) (r : Fin NN) (h : v.toInt = (r.val : Int)) : rowOf v = r := by
  have hr := r.isLt
  have hs : IntOp.cmpi .slt v 0#32 = 0#1 := by
    unfold IntOp.cmpi
    have : v.slt 0#32 = false := by
      rw [BitVec.slt_eq_decide]; simp only [BitVec.toInt_zero, decide_eq_false_iff_not, not_lt]; omega
    simp only [this]; rfl
  unfold rowOf norm Cert.GatherRows.clampRow
  rw [hs]
  refine Fin.ext ?_
  show min (Scalar.select 0#1 (IntOp.addi v 100000#32) v).toInt.toNat (NN - 1) = r.val
  have : Scalar.select 0#1 (IntOp.addi v 100000#32) v = v := by
    unfold Scalar.select; rw [if_neg (by decide)]
  rw [this, h]
  simp only [Int.toNat_natCast]
  omega

/-- A scatter of ones into zeros by integer addition counts, as a word, the updates landing on each row. -/
theorem count_word (wf : ScatterDims.WF ⟨1, ![NN]⟩ ⟨2, ![EE, 1]⟩ ⟨1, ![EE]⟩ [] [0] [0] 1)
    (idx : IVec ⟨2, ![EE, 1]⟩ 32) (r : Fin NN) :
    Host.scatter (Cert.Voxel.Ref.flatDims NN EE wf) IntOp.addi (fun _ => 0#32) idx (fun _ => 1#32) (ix1 r)
      = BitVec.ofNat 32 (Finset.univ.filter fun n : Fin EE => (idx (Cert.Voxel.Ref.rowIdx n)).toInt = (r.val : Int)).card := by
  show Host.scatter (Cert.Voxel.Ref.flatDims NN EE wf) (fun a b => a + b) (fun _ => 0#32) idx (fun _ => 1#32) (ix1 r) = _
  refine (Cert.ScatterFold.scatter_add_apply (α := BitVec 32) _ _ _ _ _).trans ?_
  rw [Cert.Voxel.Ref.sum_idx1]
  simp only [Cert.Voxel.Ref.flat_resultIdx_eq_some]
  rw [show (0#32 : BitVec 32) = 0 from rfl, zero_add, show (1#32 : BitVec 32) = 1 from rfl, Finset.sum_boole]
  rfl

/-- Read signed, that word is the count: the count is at most E < 2^31. -/
theorem toInt_count (s : Finset (Fin EE)) : (BitVec.ofNat 32 s.card).toInt = (s.card : Int) := by
  have h : s.card ≤ 3200000 := by
    have := Finset.card_le_univ s; rwa [Fintype.card_fin] at this
  have hlt : s.card < 2 ^ 32 := lt_of_le_of_lt h (by norm_num)
  have hm : s.card % 2 ^ 32 = s.card := Nat.mod_eq_of_lt hlt
  rw [BitVec.toInt_eq_toNat_of_lt (by rw [BitVec.toNat_ofNat, hm]; norm_num; omega), BitVec.toNat_ofNat, hm]

/-- The sum of one real number over the hits. -/
theorem sum_hits {ι : Type} [Fintype ι] (P : ι → Prop) [DecidablePred P] (a : ℝ) :
    (∑ n : ι, if P n then (a : EReal) else 0) = ((((Finset.univ.filter P).card : ℝ) * a : ℝ) : EReal) := by
  rw [← Finset.sum_filter, Finset.sum_const, ← EReal.coe_nsmul, nsmul_eq_mul]

/-- The law: the sum over the hits, less one copy, plus the additive term. -/
theorem law (c a : ℝ) (e : EReal) : (0 + ((c * a : ℝ) : EReal)) - (a : EReal) + e = ((c : EReal) - 1) * (a : EReal) + e := by
  rw [zero_add, ← EReal.coe_sub, ← EReal.coe_one, ← EReal.coe_sub, ← EReal.coe_mul]
  congr 2
  ring

end Cert.TableSpec

end
-- ==== Proof.RefSide.lean ====
/-
  The reference computes the specification.

  Read one operation at a time: the index words, normalised, drive three gathers (the features, the summed messages, the
  additive term); the raw words drive the accumulating scatter of the gathered feature rows into zeros. At edge `n`,
  column `c`, with r the row edge `n` gathers, the reference is

      (0 + Σ over edges n' whose raw word is r of x[row gathered by n', c]) - x[r, c] + extra[r, c].

  Every edge n' in that sum gathers row r itself (`rowOf_of_hit`), so the sum is |hits r| copies of x[r, c]; with
  x[r, c] a real number, the law gives (|hits r| - 1) * x[r, c] + extra[r, c].
-/
import proofs.«173388_j2585570312451_2_alg».proof.Proof.Gen.ReferenceIdeal.Read
import proofs.«173388_j2585570312451_2_alg».proof.Proof.TableSpec
import Idealize.ShloMosaic.Lib.ValueIdx

noncomputable section

namespace Cert.ReferenceIdeal.RefSide

open Cert.ReferenceIdeal Cert.ReferenceIdeal.Gen Cert.ReferenceIdeal.Read
open Idealize.ShloMosaic Idealize.ShloMosaic.ValueIdx Cert.TableSpec
open Cert.GatherRows (colIdx clampRow)
open Cert.Voxel.Ref (rowIdx)

/-- The flattened index row at position `n` is edge `n`'s word. -/
theorem v1_at (x2 : (⟨S2x3200000, .i32⟩ : BufTy).Contents (Elt Ideal)) (n : Fin EE) :
    val_main_v1 (F := Ideal) x2 (ix1 n) = word x2 n := by
  rw [val_main_v1_apply, val_main_v0_apply]
  unfold word
  congr 1
  funext a; refine Fin.ext ?_
  match a with
  | ⟨0, _⟩ => rfl
  | ⟨1, _⟩ => exact Nat.mod_eq_of_lt n.isLt

/-- The first normalised copy of the words. -/
theorem v6_at (x2 : (⟨S2x3200000, .i32⟩ : BufTy).Contents (Elt Ideal)) (n : Fin EE) :
    val_main_v6 (F := Ideal) x2 (ix1 n) = norm (word x2 n) := by
  rw [val_main_v6_apply, val_main_v3_apply, val_main_v5_apply, v1_at, val_main_v2_apply, val_main_c_apply,
    val_main_v4_apply, val_main_c_0_apply]
  rfl
/-- The second. -/
theorem v16_at (x2 : (⟨S2x3200000, .i32⟩ : BufTy).Contents (Elt Ideal)) (n : Fin EE) :
    val_main_v16 (F := Ideal) x2 (ix1 n) = norm (word x2 n) := by
  rw [val_main_v16_apply, val_main_v13_apply, val_main_v15_apply, v1_at, val_main_v12_apply, val_main_c_1_apply,
    val_main_v14_apply, val_main_c_2_apply]
  rfl
/-- The third. -/
theorem v24_at (x2 : (⟨S2x3200000, .i32⟩ : BufTy).Contents (Elt Ideal)) (n : Fin EE) :
    val_main_v24 (F := Ideal) x2 (ix1 n) = norm (word x2 n) := by
  rw [val_main_v24_apply, val_main_v21_apply, val_main_v23_apply, v1_at, val_main_v20_apply, val_main_c_3_apply,
    val_main_v22_apply, val_main_c_4_apply]
  rfl

theorem col_idx (n : Fin EE) : idx_main_v7 (colIdx n) = ix1 n := by
  funext a; obtain rfl : a = 0 := Subsingleton.elim _ _; rfl

/-- The three start-index columns hold the normalised words; the scatter's index column holds the raw words. -/
theorem v7_at (x2 : (⟨S2x3200000, .i32⟩ : BufTy).Contents (Elt Ideal)) (n : Fin EE) :
    val_main_v7 (F := Ideal) x2 (colIdx n) = norm (word x2 n) := by
  rw [val_main_v7_apply, col_idx, v6_at]
theorem v17_at (x2 : (⟨S2x3200000, .i32⟩ : BufTy).Contents (Elt Ideal)) (n : Fin EE) :
    val_main_v17 (F := Ideal) x2 (colIdx n) = norm (word x2 n) := by
  rw [val_main_v17_apply, show idx_main_v17 (colIdx n) = ix1 n from col_idx n, v16_at]
theorem v25_at (x2 : (⟨S2x3200000, .i32⟩ : BufTy).Contents (Elt Ideal)) (n : Fin EE) :
    val_main_v25 (F := Ideal) x2 (colIdx n) = norm (word x2 n) := by
  rw [val_main_v25_apply, show idx_main_v25 (colIdx n) = ix1 n from col_idx n, v24_at]
theorem v10_at (x2 : (⟨S2x3200000, .i32⟩ : BufTy).Contents (Elt Ideal)) (n : Fin EE) :
    val_main_v10 (F := Ideal) x2 (rowIdx n) = word x2 n := by
  rw [val_main_v10_apply, show idx_main_v10 (rowIdx n) = ix1 n from col_idx n, v1_at]

/-- The gathered feature rows. -/
theorem v8_at (x0 : (⟨S100000x16, .f32⟩ : BufTy).Contents (Elt Ideal)) (x2 : (⟨S2x3200000, .i32⟩ : BufTy).Contents (Elt Ideal))
    (n : Fin EE) (c : Fin CC) : val_main_v8 (F := Ideal) x0 x2 (ix2 n c) = x0 (ix2 (rowOf (word x2 n)) c) := by
  unfold val_main_v8
  refine (Cert.GatherRows.rows_gather_apply (N := NN) (E := EE) (C := CC) (by decide) _ x0 _ n c).trans ?_
  rw [v7_at]; rfl

/-- The gathered additive rows. -/
theorem v26_at (x1 : (⟨S100000x16, .f32⟩ : BufTy).Contents (Elt Ideal)) (x2 : (⟨S2x3200000, .i32⟩ : BufTy).Contents (Elt Ideal))
    (n : Fin EE) (c : Fin CC) : val_main_v26 (F := Ideal) x1 x2 (ix2 n c) = x1 (ix2 (rowOf (word x2 n)) c) := by
  unfold val_main_v26
  refine (Cert.GatherRows.rows_gather_apply (N := NN) (E := EE) (C := CC) (by decide) _ x1 _ n c).trans ?_
  rw [v25_at]; rfl

/-- At the ideal instance the host's accumulating scatter is the exact one (stated for any shapes, so that it is
    used as a rewrite and the sums are never unfolded). -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- The summed messages at row `r`: zero plus the gathered rows of the edges whose raw word is `r`. -/
theorem v11_at (x0 : (⟨S100000x16, .f32⟩ : BufTy).Contents (Elt Ideal)) (x2 : (⟨S2x3200000, .i32⟩ : BufTy).Contents (Elt Ideal))
    (r : Fin NN) (c : Fin CC) :
    val_main_v11 (F := Ideal) x0 x2 (ix2 r c)
      = 0 + ∑ n : Fin EE, if (word x2 n).toInt = (r.val : Int) then x0 (ix2 (rowOf (word x2 n)) c) else 0 := by
  have hdef : val_main_v11 (F := Ideal) x0 x2
      = Host.scatterAdd (F := Ideal) (φ := .f32) scatter_S100000x16_S3200000x1_S3200000x16_1_0_0_1 (val_main_v9 (F := Ideal))
          (val_main_v10 (F := Ideal) x2) (val_main_v8 (F := Ideal) x0 x2) := by
    unfold val_main_v11; with_reducible rfl
  have hrec : scatter_S100000x16_S3200000x1_S3200000x16_1_0_0_1
      = Cert.Voxel.Ref.rowsDims NN EE CC Facts₀.scatter_S100000x16_S3200000x1_S3200000x16_1_0_0_1_wf := rfl
  rw [hdef, scatterAdd_ideal, hrec, Cert.Voxel.Ref.rows_scatterAdd_apply, val_main_v9_apply, val_main_cst_apply,
    Ideal.ofBits_def, Ideal.ofBits_zero_f32]
  refine congrArg (fun s : EReal => 0 + s) (Finset.sum_congr rfl fun n _ => ?_)
  rw [v10_at, v8_at]

/-- The summed messages gathered back by edge `n`. -/
theorem v18_at (x0 : (⟨S100000x16, .f32⟩ : BufTy).Contents (Elt Ideal)) (x2 : (⟨S2x3200000, .i32⟩ : BufTy).Contents (Elt Ideal))
    (n : Fin EE) (c : Fin CC) :
    val_main_v18 (F := Ideal) x0 x2 (ix2 n c) = val_main_v11 (F := Ideal) x0 x2 (ix2 (rowOf (word x2 n)) c) := by
  unfold val_main_v18
  refine (Cert.GatherRows.rows_gather_apply (N := NN) (E := EE) (C := CC) (by decide) _ (val_main_v11 (F := Ideal) x0 x2) _ n c).trans ?_
  rw [v17_at]; rfl

/-- THE REFERENCE IS THE SPECIFICATION, when the features are real numbers. -/
theorem ref_eq_G (x0 x1 : (⟨S100000x16, .f32⟩ : BufTy).Contents (Elt Ideal)) (x2 : (⟨S2x3200000, .i32⟩ : BufTy).Contents (Elt Ideal))
    (hfin : ∀ i, ∃ a : ℝ, x0 i = (a : EReal)) :
    val_main_v27 (F := Ideal) x0 x1 x2 = G x0 x1 x2 := by
  funext i
  obtain ⟨n, c, rfl⟩ : ∃ (n : Fin EE) (c : Fin CC), i = ix2 n c := ⟨i 0, i 1, eq_ix2 i⟩
  show _ = ((((hits x2 (rowOf (word x2 n))).card : ℝ) : EReal) - 1) * x0 (ix2 (rowOf (word x2 n)) c)
    + x1 (ix2 (rowOf (word x2 n)) c)
  rw [val_main_v27_apply, val_main_v19_apply, v26_at, v8_at, v18_at, v11_at]
  obtain ⟨a, ha⟩ := hfin (ix2 (rowOf (word x2 n)) c)
  have hsum : (∑ n' : Fin EE, if (word x2 n').toInt = ((rowOf (word x2 n)).val : Int) then x0 (ix2 (rowOf (word x2 n')) c) else 0)
      = ∑ n' : Fin EE, if (word x2 n').toInt = ((rowOf (word x2 n)).val : Int) then (a : EReal) else 0 := by
    refine Finset.sum_congr rfl fun n' _ => ?_
    by_cases h : (word x2 n').toInt = ((rowOf (word x2 n)).val : Int)
    · rw [if_pos h, if_pos h, rowOf_of_hit _ _ h, ha]
    · rw [if_neg h, if_neg h]
  have hc : (Finset.univ.filter fun n' : Fin EE => (word x2 n').toInt = ((rowOf (word x2 n)).val : Int))
      = hits x2 (rowOf (word x2 n)) := by unfold hits; with_reducible rfl
  rw [hsum, sum_hits, hc, ha]
  exact law _ a _

end Cert.ReferenceIdeal.RefSide

end
-- ==== Proof.KernelSide.lean ====
/-
  The kernel computes the specification.

  Before the region the host counts, per node, the edges whose raw source word names it (an integer scatter of ones into
  zeros), converts the counts to floats, subtracts one, and broadcasts the coefficient over the 16 feature columns; the
  features, the additive term and the coefficients are re-read row-major as [12500, 128] arrays. The region writes,
  block by block, coefficient * feature + additive term: each block of the final array is that block of ONE whole-array
  function of the three arrays, and the five blocks (rows 0‥2559, …, 10240‥12499 — the last one cut at the array's
  end) cover the array. After the region the table is re-read as [100000, 16] — undoing the three re-readings entry by
  entry — and its rows are gathered by the normalised, clamped source words. So at edge `n`, column `c`, with r the row
  edge `n` gathers: (count r - 1) * x[r, c] + extra[r, c], where count r, a 32-bit word read signed, is the number of
  edges whose raw word is r.
-/
import proofs.«173388_j2585570312451_2_alg».proof.Proof.TableBodyIdeal
import proofs.«173388_j2585570312451_2_alg».proof.Proof.RefSide
import proofs.«173388_j2585570312451_2_alg».proof.Proof.TableSpec
import Idealize.ShloMosaic.Lib.Pipeline.Value
import Idealize.ShloMosaic.Lib.StableHlo.Run
import Idealize.ShloMosaic.Lib.ValueIdx
import Idealize.ShloMosaic.Lib.IdealHost

set_option maxRecDepth 16384

noncomputable section

namespace Cert.KernelIdeal.KSide

open Cert.KernelIdeal Cert.KernelIdeal.Gen Cert.KernelIdeal.Table
open Idealize.ShloMosaic Idealize.ShloMosaic.TcCoe Idealize.SL.Sem Idealize.ShloMosaic.StableHlo Idealize.ShloMosaic.ValueIdx
open Idealize.ShloMosaic.Pipeline (Dat)
open Cert.TableSpec
open Cert.GatherRows (colIdx clampRow)
open Cert.Voxel.Ref (rowIdx)

variable (m : (ℓ : Loc nD τ sig) → Buf (Elt Ideal) ℓ) (ρ : Dev nD → PrngReg)

/-! ## What the host computes before the region -/

/-- The source words, one per edge: row 0 of the index array, flattened. -/
def wordsK (x2 : (⟨S2x3200000, .i32⟩ : BufTy).Contents (Elt Ideal)) : (⟨S3200000, .i32⟩ : BufTy).Contents (Elt Ideal) :=
  shapeCast _ (extractStridedSlice S1x3200000 ![0, 0] x2 slices_S2x3200000_S1x3200000_0_0) shapeCasts_S1x3200000_S3200000

/-- The per-node count words: ones scattered into zeros by integer addition at the raw source words. -/
def cntK (x2 : (⟨S2x3200000, .i32⟩ : BufTy).Contents (Elt Ideal)) : (⟨S100000, .i32⟩ : BufTy).Contents (Elt Ideal) :=
  Host.scatter scatter_S100000_S3200000x1_S3200000_n_0_0_1 IntOp.addi
    (broadcastInDim S100000 ![] bcast_S_S100000 (constantI S_ 32 0#32))
    (broadcastInDim S3200000x1 ![0] bcast_S3200000_S3200000x1_0 (wordsK x2))
    (broadcastInDim S3200000 ![] bcast_S_S3200000 (constantI S_ 32 1#32))

/-- The coefficient (count - 1), broadcast over the feature columns. -/
def coefK (x2 : (⟨S2x3200000, .i32⟩ : BufTy).Contents (Elt Ideal)) : (⟨S100000x16, .f32⟩ : BufTy).Contents (Elt Ideal) :=
  broadcastInDim S100000x16 ![0, 1] bcast_S100000x1_S100000x16_0_1
    (broadcastInDim S100000x1 ![0] bcast_S100000_S100000x1_0
      (subf (sitofp (F := Ideal) .f32 (cntK x2))
        (broadcastInDim S100000 ![] bcast_S_S100000 (constant (F := Ideal) S_ .f32 0x3F800000#32))))

/-- The three arrays the region reads, as it finds them. -/
theorem V_v11 (c : Dev nD) : (V m c main_v11 : S12500x128.Idx → EReal)
    = shapeCast _ (m ((c : Thread nD τ).loc main_arg0)) shapeCasts_S100000x16_S12500x128 := by
  show StableHlo.after hostOps0 (fun b => m (c, b)) (Proc.devRef .tc main_v11) = _
  after_results
  rfl
theorem V_v12 (c : Dev nD) : (V m c main_v12 : S12500x128.Idx → EReal)
    = shapeCast _ (m ((c : Thread nD τ).loc main_arg1)) shapeCasts_S100000x16_S12500x128 := by
  show StableHlo.after hostOps0 (fun b => m (c, b)) (Proc.devRef .tc main_v12) = _
  after_results
  rfl
theorem V_v13 (c : Dev nD) : (V m c main_v13 : S12500x128.Idx → EReal)
    = shapeCast _ (coefK (m ((c : Thread nD τ).loc main_arg2))) shapeCasts_S100000x16_S12500x128 := by
  show StableHlo.after hostOps0 (fun b => m (c, b)) (Proc.devRef .tc main_v13) = _
  after_results
  rfl
/-- The source words are there too, for the lines after the region. -/
theorem V_v1 (c : Dev nD) : (V0 m c (Proc.devRef .tc main_v1) : S3200000.Idx → BitVec 32)
    = wordsK (m ((c : Thread nD τ).loc main_arg2)) := by
  show StableHlo.after hostOps0 (fun b => m (c, b)) (Proc.devRef .tc main_v1) = _
  after_results
  rfl

/-! ## The table the region writes -/

/-- The whole [12500, 128] table: entry by entry, coefficient * feature + additive term. -/
abbrev mulAdd (k x e : EReal) : EReal := k * x + e

def tbl (c : Dev nD) : S12500x128.Idx → EReal :=
  fun i => mulAdd (V m c main_v13 i) (V m c main_v11 i) (V m c main_v12 i)

/-- What point `t` writes back is block `t` of the table: the four windows move together. -/
theorem flushed_eq (c : Dev nD) (t : Fin cfg0.N) :
    (dats m 0 c).flushed 3 t = ((cfg0.win 3).blk t).view.read (Elt Ideal) (tbl m c) := by
  show (cfg0.win 3).cut (grid0.coords t) ((dats m 0 c).after 3 t) = _
  rw [after_3]
  show win0_3.cut (grid0.coords t) (win0_3.fill (grid0.coords t) filler (outblk m c t)) = _
  rw [win0_3.cut_fill]
  rfl

/-- The printed index map and cuts, decided over the five points: block `t` starts at row 2560 t, spans the 128
    lanes, and has min 2560 (12500 - 2560 t) rows inside the array. -/
theorem blk_facts : ∀ t : Fin cfg0.N, win0_3.index t (0 : Fin 2) = t.val ∧ win0_3.index t (1 : Fin 2) = 0
    ∧ win0_3.xsize (grid0.coords t) (0 : Fin 2) = min 2560 (12500 - 2560 * t.val)
    ∧ win0_3.xsize (grid0.coords t) (1 : Fin 2) = 128 :=
  (by decide +kernel : ∀ t : Fin grid0.N, _)

theorem mem_blk (t : Fin cfg0.N) (i : S12500x128.Idx) :
    i ∈ ((cfg0.win 3).blk t).view.set ↔ ∀ a : Fin 2, win0_3.index t a * S2560x128.size a ≤ (i a).val
      ∧ (i a).val < win0_3.index t a * S2560x128.size a + win0_3.xsize (grid0.coords t) a := by
  show i ∈ ((View.whole main_v14).slice (win0_3.rect t)).set ↔ _
  rw [View.set_slice_whole, Rect.mem_set_unit]
  exact Iff.rfl

/-- Every entry of the array is in the block of the point its row belongs to. -/
theorem cover (i : S12500x128.Idx) :
    ∃ t : Fin cfg0.N, (cfg0.win 3).flush t = true ∧ i ∈ ((cfg0.win 3).blk t).view.set := by
  have h0 : (i 0).val < 12500 := (i 0).isLt
  have h1 : (i 1).val < 128 := (i 1).isLt
  refine ⟨⟨(i 0).val / 2560, by rw [show cfg0.N = 5 from N_0]; omega⟩, flush0_3 _, ?_⟩
  rw [mem_blk]
  obtain ⟨e0, e1, e2, e3⟩ := blk_facts ⟨(i 0).val / 2560, by rw [show cfg0.N = 5 from N_0]; omega⟩
  intro a
  match a with
  | ⟨0, _⟩ =>
    show win0_3.index _ (0 : Fin 2) * 2560 ≤ (i 0).val ∧ (i 0).val < win0_3.index _ (0 : Fin 2) * 2560 + win0_3.xsize _ (0 : Fin 2)
    rw [e0, e2]; show (i 0).val / 2560 * 2560 ≤ (i 0).val ∧ (i 0).val < (i 0).val / 2560 * 2560 + min 2560 (12500 - 2560 * ((i 0).val / 2560))
    omega
  | ⟨1, _⟩ =>
    show win0_3.index _ (1 : Fin 2) * 128 ≤ (i 1).val ∧ (i 1).val < win0_3.index _ (1 : Fin 2) * 128 + win0_3.xsize _ (1 : Fin 2)
    rw [e1, e3]; omega

/-- THE ARRAY AFTER THE REGION is the table. -/
theorem final3 (c : Dev nD) : (dats m 0 c).arrAt 3 cfg0.N = tbl m c :=
  (dats m 0 c).arrAt_eq_of_cover 3 (tbl m c) (fun t _ => flushed_eq m c t) cover

/-! ## After the region -/

/-- The table re-read as [100000, 16]: the three row-major re-readings undone entry by entry. -/
theorem table_rows (c : Dev nD) :
    shapeCast S100000x16 (tbl m c) shapeCasts_S12500x128_S100000x16
      = fun i => mulAdd (coefK (m ((c : Thread nD τ).loc main_arg2)) i)
          (m ((c : Thread nD τ).loc main_arg0) i) (m ((c : Thread nD τ).loc main_arg1) i) := by
  funext i
  show mulAdd (shapeCast S100000x16 (V m c main_v13 : S12500x128.Idx → EReal) shapeCasts_S12500x128_S100000x16 i)
      (shapeCast S100000x16 (V m c main_v11 : S12500x128.Idx → EReal) shapeCasts_S12500x128_S100000x16 i)
      (shapeCast S100000x16 (V m c main_v12 : S12500x128.Idx → EReal) shapeCasts_S12500x128_S100000x16 i) = _
  rw [V_v11, V_v12, V_v13]
  have h (v : S100000x16.Idx → EReal) : shapeCast S100000x16 (shapeCast S12500x128 v shapeCasts_S100000x16_S12500x128)
      shapeCasts_S12500x128_S100000x16 i = v i := congrFun (shapeCast_shapeCast v _ _) i
  rw [h, h, h]

/-- What the lines after the region leave in the result: the table's rows gathered by the normalised source words. -/
theorem tail_eq (c : Dev nD) :
    (Pipeline.afterTail₀ cfgs (dats m) 0 (V0 m) [hostOps1] c main_v22 : S3200000x16.Idx → EReal)
      = Host.gather gather_S100000x16_S3200000x1_S3200000x16_1_0_n_n_0_1_116
          (shapeCast S100000x16 (tbl m c) shapeCasts_S12500x128_S100000x16)
          (broadcastInDim S3200000x1 ![0] bcast_S3200000_S3200000x1_0
            (select (cmpi .slt (wordsK (m ((c : Thread nD τ).loc main_arg2))) (broadcastInDim S3200000 ![] bcast_S_S3200000 (constantI S_ 32 0#32)))
              (addi (wordsK (m ((c : Thread nD τ).loc main_arg2))) (broadcastInDim S3200000 ![] bcast_S_S3200000 (constantI S_ 32 100000#32)))
              (wordsK (m ((c : Thread nD τ).loc main_arg2))))) := by
  unfold Pipeline.afterTail₀
  show StableHlo.after hostOps1 _ (Proc.devRef .tc main_v22) = _
  after_results
  have h14 : Pipeline.withArrays (cfgs 0).spec c (V0 m c) (fun w => (dats m 0 c).arrAt w (cfgs 0).N) (Proc.devRef .tc main_v14)
      = tbl m c := (Pipeline.withArrays_arr spec0 launch0.win.arr_inj c _ _ 3).trans (final3 m c)
  have h1 : Pipeline.withArrays (cfgs 0).spec c (V0 m c) (fun w => (dats m 0 c).arrAt w (cfgs 0).N) (Proc.devRef .tc main_v1)
      = wordsK (m ((c : Thread nD τ).loc main_arg2)) :=
    (Pipeline.withArrays_of_ne _ c (V0 m c) _ main_v1 (by exact (by decide : ∀ w, Pipeline.arrRef spec0 w ≠ main_v1))).trans (V_v1 m c)
  rw [h14, h1]
  rfl

/-! ## The coefficient and the result, at an index -/

/-- The count word of row `r` is the number of edges whose raw word is `r`, as a word. -/
theorem cnt_at (x2 : (⟨S2x3200000, .i32⟩ : BufTy).Contents (Elt Ideal)) (r : Fin NN) :
    cntK x2 (ix1 r) = BitVec.ofNat 32 (hits x2 r).card := by
  have hz : broadcastInDim S100000 ![] bcast_S_S100000 (constantI S_ 32 0#32) = fun _ => 0#32 := rfl
  have ho : broadcastInDim S3200000 ![] bcast_S_S3200000 (constantI S_ 32 1#32) = fun _ => 1#32 := rfl
  have hrec : scatter_S100000_S3200000x1_S3200000_n_0_0_1
      = Cert.Voxel.Ref.flatDims NN EE Facts₀.scatter_S100000_S3200000x1_S3200000_n_0_0_1_wf := rfl
  unfold cntK
  rw [hz, ho, hrec, count_word]
  unfold hits
  refine congrArg (fun s : Finset (Fin EE) => BitVec.ofNat 32 s.card) (Finset.filter_congr fun n _ => ?_)
  rw [show (broadcastInDim S3200000x1 ![0] bcast_S3200000_S3200000x1_0 (wordsK x2)) (rowIdx n) = word x2 n from
    Cert.ReferenceIdeal.RefSide.v10_at x2 n]

/-- The coefficient at node `r`, any column: the number of edges whose raw word is `r`, less one. -/
theorem coef_at (x2 : (⟨S2x3200000, .i32⟩ : BufTy).Contents (Elt Ideal)) (r : Fin NN) (cc : Fin CC) :
    coefK x2 (ix2 r cc) = (((hits x2 r).card : ℝ) : EReal) - 1 := by
  unfold coefK
  refine (broadcastInDim_apply _ bcast_S100000x1_S100000x16_0_1 _ (ix2 r cc) (ix2 r (⟨0, Nat.one_pos⟩ : Fin 1)) (fun a => match a with
      | ⟨0, _⟩ => by show r.val = if (100000 : Nat) = 1 then 0 else r.val; rw [if_neg (by decide)]
      | ⟨1, _⟩ => by show (0 : Nat) = if (1 : Nat) = 1 then 0 else cc.val; rw [if_pos rfl])).trans ?_
  refine (broadcastInDim_apply _ bcast_S100000_S100000x1_0 _ (ix2 r (⟨0, Nat.one_pos⟩ : Fin 1)) (ix1 r) (fun a => match a with
      | ⟨0, _⟩ => by show r.val = if (100000 : Nat) = 1 then 0 else r.val; rw [if_neg (by decide)])).trans ?_
  show (((cntK x2 (ix1 r)).toInt : ℝ) : EReal) - Ideal.ofBits .f32 0x3F800000#32 = _
  rw [cnt_at, Ideal.ofBits_one_f32, toInt_count, Int.cast_natCast]

/-- THE KERNEL'S RESULT IS THE SPECIFICATION. -/
theorem kernel_eq_G (c : Dev nD) :
    (Pipeline.afterTail₀ cfgs (dats m) 0 (V0 m) [hostOps1] c main_v22 : S3200000x16.Idx → EReal)
      = G (m ((c : Thread nD τ).loc main_arg0)) (m ((c : Thread nD τ).loc main_arg1)) (m ((c : Thread nD τ).loc main_arg2)) := by
  rw [tail_eq, table_rows]
  funext i
  obtain ⟨n, cc, rfl⟩ : ∃ (n : Fin EE) (cc : Fin CC), i = ix2 n cc := ⟨i 0, i 1, eq_ix2 i⟩
  show _ = ((((hits (m ((c : Thread nD τ).loc main_arg2)) (rowOf (word (m ((c : Thread nD τ).loc main_arg2)) n))).card : ℝ) : EReal) - 1)
      * m ((c : Thread nD τ).loc main_arg0) (ix2 (rowOf (word (m ((c : Thread nD τ).loc main_arg2)) n)) cc)
    + m ((c : Thread nD τ).loc main_arg1) (ix2 (rowOf (word (m ((c : Thread nD τ).loc main_arg2)) n)) cc)
  refine (Cert.GatherRows.rows_gather_apply (N := NN) (E := EE) (C := CC) (by decide) _ _ _ n cc).trans ?_
  rw [show (broadcastInDim S3200000x1 ![0] bcast_S3200000_S3200000x1_0
        (select (cmpi .slt (wordsK (m ((c : Thread nD τ).loc main_arg2))) (broadcastInDim S3200000 ![] bcast_S_S3200000 (constantI S_ 32 0#32)))
          (addi (wordsK (m ((c : Thread nD τ).loc main_arg2))) (broadcastInDim S3200000 ![] bcast_S_S3200000 (constantI S_ 32 100000#32)))
          (wordsK (m ((c : Thread nD τ).loc main_arg2))))) (colIdx n) = norm (word (m ((c : Thread nD τ).loc main_arg2)) n) from
    Cert.ReferenceIdeal.RefSide.v7_at (m ((c : Thread nD τ).loc main_arg2)) n]
  show mulAdd (coefK (m ((c : Thread nD τ).loc main_arg2)) (ix2 (rowOf (word (m ((c : Thread nD τ).loc main_arg2)) n)) cc))
      (m ((c : Thread nD τ).loc main_arg0) (ix2 (rowOf (word (m ((c : Thread nD τ).loc main_arg2)) n)) cc))
      (m ((c : Thread nD τ).loc main_arg1) (ix2 (rowOf (word (m ((c : Thread nD τ).loc main_arg2)) n)) cc)) = _
  rw [coef_at]

/-- The kernel's run, with the result named: every execution ends with the result at the specification and the
    arguments unchanged. -/
theorem run : θ_run defs (onTc (τ := τ) (main (F := Ideal))) ⟨m, fun _ => 0, ρ⟩ fun r => ∀ c : Dev nD,
      r.2.mem ((c.tc : Thread nD τ).loc main_v22)
        = G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v22 (Pipeline.mem_restRefs_of main_v22 (by decide) (by decide))).trans (kernel_eq_G m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main (F := Ideal) m ρ)

end Cert.KernelIdeal.KSide

end
-- ==== Proof.lean ====
/-
  The claim: a per-node table (count - 1) * x + extra, gathered by edge, against the per-edge message sum.

  The reference gathers a feature row per edge, sums the gathered rows per source node by an accumulating scatter,
  gathers the sums back per edge, subtracts the edge's own row and adds the edge's additive row. The kernel counts the
  edges per source node, builds the table (count - 1) * x + extra once per node in a pipelined elementwise pass over a
  row-major re-reading of the arrays, and gathers the table per edge. Every edge whose raw source word names node r
  gathers row r, so the summed messages at r are count(r) copies of x[r]; with x[r] real, count * x - x = (count - 1) * x.

  The modules: TableBodyBits / TableBodyIdeal (the pipelined pass: the body's triple, the proof data, the run, the frame,
  at the word-level and the ideal instance), TableSpec (the specification and the three joining facts), TableFinite (the
  precondition gives real numbers), RefSide (the reference is the specification), KernelSide (the kernel is the
  specification), over LibScatterFold / LibScatterRows / LibGatherRows (scatters and gathers read at an index).
-/
import proofs.«173388_j2585570312451_2_alg».proof.Defs
import proofs.«173388_j2585570312451_2_alg».proof.Proof.Gen.Kernel
import proofs.«173388_j2585570312451_2_alg».proof.Proof.Gen.KernelIdeal
import proofs.«173388_j2585570312451_2_alg».proof.Proof.Gen.ReferenceIdeal
import proofs.«173388_j2585570312451_2_alg».proof.Proof.Gen.Pre_finite_inputs
import proofs.«173388_j2585570312451_2_alg».proof.Proof.Gen.ReferenceIdeal.Run
import proofs.«173388_j2585570312451_2_alg».proof.Proof.Gen.ReferenceIdeal.Read
import proofs.«173388_j2585570312451_2_alg».proof.Proof.TableBodyBits
import proofs.«173388_j2585570312451_2_alg».proof.Proof.TableBodyIdeal
import proofs.«173388_j2585570312451_2_alg».proof.Proof.TableFinite
import proofs.«173388_j2585570312451_2_alg».proof.Proof.RefSide
import proofs.«173388_j2585570312451_2_alg».proof.Proof.KernelSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Table.frame (F := Bits) m ρ

/-- So does the idealized kernel. -/
theorem frame_ki : Cert.frame_KernelIdeal := fun m ρ _ => Cert.KernelIdeal.Table.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification of their (agreeing) arguments; the reference needs the features
    to be real numbers, which the precondition gives. -/
theorem algebraic : Cert.algebraic_KernelIdeal_ReferenceIdeal := by
  intro m ρ m' ρ' hpre hagree
  refine ⟨fun c => Cert.TableSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2]
  exact Cert.ReferenceIdeal.RefSide.ref_eq_G _ _ _ (fun i => Cert.TableFinite.real_of_pre _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
